-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S50000x10 : Shape := ⟨2, ![50000, 10]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel

variable [Facts]

def fn {F : FTy → Type} [FloatOps F] (main_arg0 : FVec F S200000x256 .f32) (main_arg1 : IVec S50000x10 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  main_v3
-- ==== Kernel.lean ====
abbrev S200000x256 : Shape := ⟨2, ![200000, 256]⟩
abbrev S50000x10 : Shape := ⟨2, ![50000, 10]⟩
abbrev S50000x1 : Shape := ⟨2, ![50000, 1]⟩
abbrev S50000x9 : Shape := ⟨2, ![50000, 9]⟩
abbrev S_ : Shape := ⟨0, ![]⟩
abbrev S50000x1x1 : Shape := ⟨3, ![50000, 1, 1]⟩
abbrev S50000x1x256 : Shape := ⟨3, ![50000, 1, 256]⟩
abbrev S50000x9x1 : Shape := ⟨3, ![50000, 9, 1]⟩
abbrev S50000x9x256 : Shape := ⟨3, ![50000, 9, 256]⟩
abbrev S50000x256 : Shape := ⟨2, ![50000, 256]⟩
abbrev S1x1 : Shape := ⟨2, ![1, 1]⟩
abbrev S400x1x256 : Shape := ⟨3, ![400, 1, 256]⟩
abbrev S400x9x256 : Shape := ⟨3, ![400, 9, 256]⟩
abbrev S400x256 : Shape := ⟨2, ![400, 256]⟩
abbrev S400 : Shape := ⟨1, ![400]⟩
abbrev S400x1 : Shape := ⟨2, ![400, 1]⟩
abbrev S400x9 : Shape := ⟨2, ![400, 9]⟩
abbrev S1 : Shape := ⟨1, ![1]⟩

abbrev nBuf : Space → Nat
  | .hbm => 25
  | .vmem => 8
  | .smem => 0
  | _ => 0

abbrev bufTy : (tb : Table) → Fin (tcTables nBuf tb) → BufTy
  | .hbm, ⟨0, _⟩ => ⟨S200000x256, .f32⟩
  | .hbm, ⟨1, _⟩ => ⟨S50000x10, .i32⟩
  | .hbm, ⟨2, _⟩ => ⟨S50000x1, .i32⟩
  | .hbm, ⟨3, _⟩ => ⟨S50000x9, .i32⟩
  | .hbm, ⟨4, _⟩ => ⟨S_, .i32⟩
  | .hbm, ⟨5, _⟩ => ⟨S50000x1, .i32⟩
  | .hbm, ⟨6, _⟩ => ⟨S50000x1, .i1⟩
  | .hbm, ⟨7, _⟩ => ⟨S_, .i32⟩
  | .hbm, ⟨8, _⟩ => ⟨S50000x1, .i32⟩
  | .hbm, ⟨9, _⟩ => ⟨S50000x1, .i32⟩
  | .hbm, ⟨10, _⟩ => ⟨S50000x1, .i32⟩
  | .hbm, ⟨11, _⟩ => ⟨S50000x1x1, .i32⟩
  | .hbm, ⟨12, _⟩ => ⟨S50000x1x256, .f32⟩
  | .hbm, ⟨13, _⟩ => ⟨S_, .i32⟩
  | .hbm, ⟨14, _⟩ => ⟨S50000x9, .i32⟩
  | .hbm, ⟨15, _⟩ => ⟨S50000x9, .i1⟩
  | .hbm, ⟨16, _⟩ => ⟨S_, .i32⟩
  | .hbm, ⟨17, _⟩ => ⟨S50000x9, .i32⟩
  | .hbm, ⟨18, _⟩ => ⟨S50000x9, .i32⟩
  | .hbm, ⟨19, _⟩ => ⟨S50000x9, .i32⟩
  | .hbm, ⟨20, _⟩ => ⟨S50000x9x1, .i32⟩
  | .hbm, ⟨21, _⟩ => ⟨S50000x9x256, .f32⟩
  | .hbm, ⟨22, _⟩ => ⟨S50000x256, .f32⟩
  | .hbm, ⟨23, _⟩ => ⟨S1x1, .f32⟩
  | .hbm, ⟨24, _⟩ => ⟨S_, .f32⟩
  | .local _ .vmem, ⟨0, _⟩ => ⟨S400x1x256, .f32⟩
  | .local _ .vmem, ⟨1, _⟩ => ⟨S400x1x256, .f32⟩
  | .local _ .vmem, ⟨2, _⟩ => ⟨S400x9x256, .f32⟩
  | .local _ .vmem, ⟨3, _⟩ => ⟨S400x9x256, .f32⟩
  | .local _ .vmem, ⟨4, _⟩ => ⟨S400x256, .f32⟩
  | .local _ .vmem, ⟨5, _⟩ => ⟨S400x256, .f32⟩
  | .local _ .vmem, ⟨6, _⟩ => ⟨S1x1, .f32⟩
  | .local _ .vmem, ⟨7, _⟩ => ⟨S1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v51 : BitVec 1 := Scalar.cmpi .eq arg0 c124_i32
  let v52 : BitVec 32 := Scalar.extui v51
  let c0_i32_22 : BitVec 32 := 0#32
  let v53 : BitVec 1 := Scalar.cmpi .ne v52 c0_i32_22
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S50000x10_S50000x1_0_0 : S50000x10.Slices ![0, 0] S50000x1
  slices_S50000x10_S50000x9_0_1 : S50000x10.Slices ![0, 1] S50000x9
  bcast_S_S50000x1 : S_.BroadcastsInDim S50000x1 (![] : Fin 0 → Fin S50000x1.rank)
  bcast_S50000x1_S50000x1x1_0_1 : S50000x1.BroadcastsInDim S50000x1x1 (![0, 1] : Fin 2 → Fin S50000x1x1.rank)
  bcast_S_S50000x9 : S_.BroadcastsInDim S50000x9 (![] : Fin 0 → Fin S50000x9.rank)
  bcast_S50000x9_S50000x9x1_0_1 : S50000x9.BroadcastsInDim S50000x9x1 (![0, 1] : Fin 2 → Fin S50000x9x1.rank)
  slices_S200000x256_S50000x256_0_0 : S200000x256.Slices ![0, 0] S50000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S400x1x256_S400x1x256_0_0_0 : ∀ a, (![0, 0, 0] : Fin 3 → Nat) a + S400x1x256.size a ≤ S400x1x256.size a
  h_S400x1x256 : 0 < S400x1x256.numel
  shapeCasts_S400x1x256_S400x1x256 : S400x1x256.ShapeCasts S400x1x256
  inb_S400x9x256_S400x9x256_0_0_0 : ∀ a, (![0, 0, 0] : Fin 3 → Nat) a + S400x9x256.size a ≤ S400x9x256.size a
  h_S400x9x256 : 0 < S400x9x256.numel
  shapeCasts_S400x9x256_S400x9x256 : S400x9x256.ShapeCasts S400x9x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  shapeCasts_S400x256_S400x1x256 : S400x256.ShapeCasts S400x1x256
  reduces_S400x256_S400 : S400x256.Reduces [1] S400
  shapeCasts_S400_S400x1 : S400.ShapeCasts S400x1
  reduces_S400x1x256_S400x1 : S400x1x256.Reduces [2] S400x1
  broadcasts_S400x1x256_S400x9x256 : S400x1x256.Broadcasts S400x9x256
  reduces_S400x9x256_S400x9 : S400x9x256.Reduces [2] S400x9
  broadcasts_S400x1_S400x9 : S400x1.Broadcasts S400x9
  reduces_S400x9_S400 : S400x9.Reduces [1] S400
  reduces_S400x1_S1 : S400x1.Reduces [0] S1
  shapeCasts_S1_S1x1 : S1.ShapeCasts S1x1
  shapeCasts_S1x1_S_ : S1x1.ShapeCasts S_
  gather_S200000x256_S50000x1x1_S50000x1x256_2_0_n_n_0_2_1256_wf : GatherDims.WF S200000x256 S50000x1x1 S50000x1x256 [2] [0] [] [0] [] 2 ![1, 256]
  gather_S200000x256_S50000x9x1_S50000x9x256_2_0_n_n_0_2_1256_wf : GatherDims.WF S200000x256 S50000x9x1 S50000x9x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1x256.size a ≤ S50000x1x256.size a
  hwx0_0 : ∀ i : grid0.Coords, EltTy.bits .f32 = 32 ∨ (Rect.block (s := S50000x1x256) S400x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x9x256.size a ≤ S50000x9x256.size a
  hwx0_1 : ∀ i : grid0.Coords, EltTy.bits .f32 = 32 ∨ (Rect.block (s := S50000x9x256) S400x9x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S50000x256.size a
  hwx0_2 : ∀ i : grid0.Coords, EltTy.bits .f32 = 32 ∨ (Rect.block (s := S50000x256) S400x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S200000x256_S50000x1x1_S50000x1x256_2_0_n_n_0_2_1256 : GatherDims S200000x256 S50000x1x1 S50000x1x256 where
  offsetDims := [2]
  collapsedSliceDims := [0]
  operandBatchingDims := []
  startIndicesBatchingDims := []
  startIndexMap := [0]
  indexVectorDim := 2
  sliceSizes := ![1, 256]
  wf := gather_S200000x256_S50000x1x1_S50000x1x256_2_0_n_n_0_2_1256_wf
def gather_S200000x256_S50000x9x1_S50000x9x256_2_0_n_n_0_2_1256 : GatherDims S200000x256 S50000x9x1 S50000x9x256 where
  offsetDims := [2]
  collapsedSliceDims := [0]
  operandBatchingDims := []
  startIndicesBatchingDims := []
  startIndexMap := [0]
  indexVectorDim := 2
  sliceSizes := ![1, 256]
  wf := gather_S200000x256_S50000x9x1_S50000x9x256_2_0_n_n_0_2_1256_wf

abbrev win0_0 : Pipeline.Window sig grid0 :=
  Pipeline.Window.ofSpec (Memref.whole main_v8) S400x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S400x9x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S400x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S200000x256 : Shape := ⟨2, ![200000, 256]⟩
abbrev S50000x10 : Shape := ⟨2, ![50000, 10]⟩
abbrev S_ : Shape := ⟨0, ![]⟩
abbrev S50000x10x1 : Shape := ⟨3, ![50000, 10, 1]⟩
abbrev S50000x10x256 : Shape := ⟨3, ![50000, 10, 256]⟩
abbrev S50000x256 : Shape := ⟨2, ![50000, 256]⟩
abbrev S50000x1x256 : Shape := ⟨3, ![50000, 1, 256]⟩
abbrev S50000x1 : Shape := ⟨2, ![50000, 1]⟩
abbrev S50000 : Shape := ⟨1, ![50000]⟩
abbrev S50000x9 : Shape := ⟨2, ![50000, 9]⟩

abbrev nBuf : Space → Nat
  | .hbm => 50
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S50000x10, .i32⟩
  | .hbm, ⟨2, _⟩ => ⟨S_, .i32⟩
  | .hbm, ⟨3, _⟩ => ⟨S50000x10, .i32⟩
  | .hbm, ⟨4, _⟩ => ⟨S50000x10, .i1⟩
  | .hbm, ⟨5, _⟩ => ⟨S_, .i32⟩
  | .hbm, ⟨6, _⟩ => ⟨S50000x10, .i32⟩
  | .hbm, ⟨7, _⟩ => ⟨S50000x10, .i32⟩
  | .hbm, ⟨8, _⟩ => ⟨S50000x10, .i32⟩
  | .hbm, ⟨9, _⟩ => ⟨S50000x10x1, .i32⟩
  | .hbm, ⟨10, _⟩ => ⟨S50000x10x256, .f32⟩
  | .hbm, ⟨11, _⟩ => ⟨S50000x256, .f32⟩
  | .hbm, ⟨12, _⟩ => ⟨S50000x1x256, .f32⟩
  | .hbm, ⟨13, _⟩ => ⟨S50000x10x256, .f32⟩
  | .hbm, ⟨14, _⟩ => ⟨S50000x10x256, .f32⟩
  | .hbm, ⟨15, _⟩ => ⟨S_, .f32⟩
  | .hbm, ⟨16, _⟩ => ⟨S50000x10, .f32⟩
  | .hbm, ⟨17, _⟩ => ⟨S50000x1x256, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S50000x10x256, .f32⟩
  | .hbm, ⟨25, _⟩ => ⟨S_, .f32⟩
  | .hbm, ⟨26, _⟩ => ⟨S50000x10, .f32⟩
  | .hbm, ⟨27, _⟩ => ⟨S50000x10, .f32⟩
  | .hbm, ⟨28, _⟩ => ⟨S_, .f32⟩
  | .hbm, ⟨29, _⟩ => ⟨S50000x10, .f32⟩
  | .hbm, ⟨30, _⟩ => ⟨S50000x10, .f32⟩
  | .hbm, ⟨31, _⟩ => ⟨S50000x10, .f32⟩
  | .hbm, ⟨32, _⟩ => ⟨S50000x10, .f32⟩
  | .hbm, ⟨33, _⟩ => ⟨S50000x10, .f32⟩
  | .hbm, ⟨34, _⟩ => ⟨S50000x10, .f32⟩
  | .hbm, ⟨35, _⟩ => ⟨S_, .f32⟩
  | .hbm, ⟨36, _⟩ => ⟨S50000x10, .f32⟩
  | .hbm, ⟨37, _⟩ => ⟨S50000x10, .f32⟩
  | .hbm, ⟨38, _⟩ => ⟨S50000x1, .f32⟩
  | .hbm, ⟨39, _⟩ => ⟨S50000, .f32⟩
  | .hbm, ⟨40, _⟩ => ⟨S50000x9, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  slices_S200000x256_S50000x256_0_0 : S200000x256.Slices ![0, 0] S50000x256
  bcast_S50000x256_S50000x1x256_0_2 : S50000x256.BroadcastsInDim S50000x1x256 (![0, 2] : Fin 2 → Fin S50000x1x256.rank)
  bcast_S50000x1x256_S50000x10x256_0_1_2 : S50000x1x256.BroadcastsInDim S50000x10x256 (![0, 1, 2] : Fin 3 → Fin S50000x10x256.rank)
  reducesTo_S50000x10x256_S50000x10_d2 : S50000x10x256.ReducesTo [2] S50000x10
  h_S_ : 0 < S_.numel
  reducesTo_S50000x1x256_S50000x1_d2 : S50000x1x256.ReducesTo [2] S50000x1
  bcast_S_S50000x1 : S_.BroadcastsInDim S50000x1 (![] : Fin 0 → Fin S50000x1.rank)
  bcast_S50000x1_S50000x10_0_1 : S50000x1.BroadcastsInDim S50000x10 (![0, 1] : Fin 2 → Fin S50000x10.rank)
  slices_S50000x10_S50000x1_0_0 : S50000x10.Slices ![0, 0] S50000x1
  shapeCasts_S50000x1_S50000 : S50000x1.ShapeCasts S50000
  slices_S50000x10_S50000x9_0_1 : S50000x10.Slices ![0, 1] S50000x9
  reducesTo_S50000x9_S50000_d1 : S50000x9.ReducesTo [1] S50000
  reducesTo_S50000_S_d0 : S50000.ReducesTo [0] S_
  gather_S200000x256_S50000x10x1_S50000x10x256_2_0_n_n_0_2_1256_wf : GatherDims.WF S200000x256 S50000x10x1 S50000x10x256 [2] [0] [] [0] [] 2 ![1, 256]

variable [Facts₀]

def gather_S200000x256_S50000x10x1_S50000x10x256_2_0_n_n_0_2_1256 : GatherDims S200000x256 S50000x10x1 S50000x10x256 where
  offsetDims := [2]
  collapsedSliceDims := [0]
  operandBatchingDims := []
  startIndicesBatchingDims := []
  startIndexMap := [0]
  indexVectorDim := 2
  sliceSizes := ![1, 256]
  wf := gather_S200000x256_S50000x10x1_S50000x10x256_2_0_n_n_0_2_1256_wf

class Facts : Prop extends Facts₀ where

variable [Facts]
-- ==== Proof.KernelPieces.lean ====
/-
  What one run of the kernel body leaves behind, case by case, for any float instance.

  The body keeps a 1×1 running total in a scratch cell that survives from one grid point to the next. At every
  point it loads the tile's three blocks (400 positive rows, 400×9 negative rows, 400 anchor rows), computes from
  them the tile's partial loss, and stores "old total + partial" back into the cell. At the first point it first
  stores zero into the cell, so the old total it then reads back is that zero. At the last point it moreover stores
  "new total / 50000" into the output cell.

  So the cell after a point is one function of the three blocks and of the cell before (the store's payload), and the
  output cell after the last point is the quotient's payload of that: the four equations below.
-/
import proofs.«159660_j34359738990_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running total after a point: the tile's partial loss (a function of the three blocks) added to the total
    before. -/
abbrev step (x0 : Vec F S400x1x256 .f32) (x1 : Vec F S400x9x256 .f32) (x2 : Vec F S400x256 .f32) (acc : Vec F S1x1 .f32) :
    Vec F S1x1 .f32 :=
  k0_pay1 (k0_pay7 x0 x2) (k0_pay8 x1 x2) acc

/-- A middle point: the cell holds the step of the total before. -/
theorem cell_mid (c : Dev nD) (i : grid0.Coords) (a1 : Memref sig .tc .vmem S400x1x256 .f32) (h1 : a1.IsWhole) (a2 : Memref sig .tc .vmem S400x9x256 .f32) (h2 : a2.IsWhole) (a3 : Memref sig .tc .vmem S400x256 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S400x1x256 .f32) (x1 : Vec F S400x9x256 .f32) (x2 : Vec F S400x256 .f32) (xs0 : Vec F S1x1 .f32) :
    sout0_B_0 c i a1 h1 a2 h2 a3 h3 a4 h4 a5 h5 hc0 hc1 x0 x1 x2 xs0 = step x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz2]
  simp only [View.readAt_eq_ld, h1.read_unread, h2.read_unread, h3.read_unread, h5.read_unread,
    View.ld_unit_zero (S := S400x1x256) hz3, View.ld_unit_zero (S := S400x9x256) hz3, View.ld_unit_zero (S := S400x256) hz2,
    View.ld_unit_zero (S := S1x1) hz2]

/-- The first point: the cell is zeroed first, so it holds the step of zero. -/
theorem cell_first (c : Dev nD) (i : grid0.Coords) (a1 : Memref sig .tc .vmem S400x1x256 .f32) (h1 : a1.IsWhole) (a2 : Memref sig .tc .vmem S400x9x256 .f32) (h2 : a2.IsWhole) (a3 : Memref sig .tc .vmem S400x256 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S400x1x256 .f32) (x1 : Vec F S400x9x256 .f32) (x2 : Vec F S400x256 .f32) :
    sout0_A_0 c i a1 h1 a2 h2 a3 h3 a4 h4 a5 h5 hc0 hc1 x0 x1 x2 = step x0 x1 x2 (k0_pay3 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h5.read_unread,
    View.ld_unit_zero (S := S400x1x256) hz3, View.ld_unit_zero (S := S400x9x256) hz3, View.ld_unit_zero (S := S400x256) hz2,
    View.ld_unit_zero (S := S1x1) hz2]

/-- The last point: the cell holds the step of the total before, as at a middle point, -/
theorem cell_last (c : Dev nD) (i : grid0.Coords) (a1 : Memref sig .tc .vmem S400x1x256 .f32) (h1 : a1.IsWhole) (a2 : Memref sig .tc .vmem S400x9x256 .f32) (h2 : a2.IsWhole) (a3 : Memref sig .tc .vmem S400x256 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S400x1x256 .f32) (x1 : Vec F S400x9x256 .f32) (x2 : Vec F S400x256 .f32) (xs0 : Vec F S1x1 .f32) :
    sout0_C_0 c i a1 h1 a2 h2 a3 h3 a4 h4 a5 h5 hc0 hc1 x0 x1 x2 xs0 = step x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz2]
  simp only [View.readAt_eq_ld, h1.read_unread, h2.read_unread, h3.read_unread, h5.read_unread,
    View.ld_unit_zero (S := S400x1x256) hz3, View.ld_unit_zero (S := S400x9x256) hz3, View.ld_unit_zero (S := S400x256) hz2,
    View.ld_unit_zero (S := S1x1) hz2]

/-- and the output cell holds the quotient's payload of that new total. -/
theorem out_last (c : Dev nD) (i : grid0.Coords) (a1 : Memref sig .tc .vmem S400x1x256 .f32) (h1 : a1.IsWhole) (a2 : Memref sig .tc .vmem S400x9x256 .f32) (h2 : a2.IsWhole) (a3 : Memref sig .tc .vmem S400x256 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S400x1x256 .f32) (x1 : Vec F S400x9x256 .f32) (x2 : Vec F S400x256 .f32) (xs0 : Vec F S1x1 .f32) :
    out0_C_3 c i a1 h1 a2 h2 a3 h3 a4 h4 a5 h5 hc0 hc1 x0 x1 x2 xs0 = k0_pay2 (step x0 x1 x2 xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz2, View.readCov_unit_zero (S := S1x1) _ hz2]
  simp only [View.readAt_eq_ld, h1.read_unread, h2.read_unread, h3.read_unread, h5.read_unread,
    View.ld_unit_zero (S := S400x1x256) hz3, View.ld_unit_zero (S := S400x9x256) hz3, View.ld_unit_zero (S := S400x256) hz2,
    View.ld_unit_zero (S := S1x1) hz2]

end Cert.KernelIdeal.Pieces

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibMidAxis.lean ====
/-
  Two layout operations read at an index given by coordinates, for a unit axis in the MIDDLE of a rank-3 shape: a
  matrix `[a, b]` cast to `[a, 1, b]` (each row kept as a one-row slab), and such a slab array `[a, 1, b]` broadcast
  along the unit axis to `[a, c, b]` (each row repeated `c` times). Both are instances of the general "layout operation
  read at an index" lemmas with the coordinates' arithmetic discharged, in the form the index library has for a
  leading unit axis.
-/
import Idealize.ShloMosaic.Lib.Pipeline.Value
import Idealize.ShloMosaic.Lib.ValueIdx

namespace Cert.MidAxis

open Idealize.ShloMosaic Idealize.ShloMosaic.ValueIdx

variable {α : Type}

/-- A matrix `[a, b]` cast to `[a, 1, b]` reads, at `(i, u, j)`, the operand at `(i, j)`, whatever the unit coordinate
    `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A slab array `[a, 1, b]` broadcast to `[a, c, b]` reads, at `(i, k, j)`, the slab of row `i` at `j`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.MidAxis
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.Spec.lean ====
/-
  The contrastive loss both programs compute, as a function on the extended reals.

  A row has an anchor vector `a`, a positive vector `p` and nine negative vectors `n k`, all of length 256. With the
  clamped norm `‖v‖ = max (√(Σ v²)) ε` and the similarity `s(a, v) = (Σ a·v) / (‖a‖·‖v‖)`, the row's loss is
  `−log (exp (s(a, p)) / Σₖ exp (s(a, n k)))`, and the result is the sum of the 50000 rows' losses divided by 50000.

  One program adds the rows' losses 400 at a time, tile after tile, starting from zero; the other adds all 50000 at
  once. Over the extended reals addition is commutative and associative without exception, so the two totals are the
  same number: `sum_tiles` regroups, `running_eq_sum` unrolls the running total.
-/
import Idealize.ShloMosaic.PureOps.Ideal
import Idealize.ShloMosaic.PureOps.Ideal.Laws

noncomputable section

namespace Cert.Contrastive

open Idealize.ShloMosaic

/-- The norm clamp `ε`: the number the single-precision word of `1e-8` denotes. -/
def eps : EReal := Ideal.ofBits .f32 0x322BCC77#32

/-- The number of rows as both programs write it: the number the single-precision word of `50000` denotes. -/
def count : EReal := Ideal.ofBits .f32 0x47435000#32

/-- The clamped Euclidean norm of a vector of length 256. -/
def clampNorm (v : Fin 256 → EReal) : EReal := max (Ideal.sqrt (∑ d, v d * v d)) eps

/-- `exp` of the cosine similarity of `a` and `v` (with clamped norms). -/
def cosExp (a v : Fin 256 → EReal) : EReal :=
  Ideal.exp (Ideal.div (∑ d, a d * v d) (clampNorm a * clampNorm v))

/-- One row's loss. -/
def rowLoss (a p : Fin 256 → EReal) (n : Fin 9 → Fin 256 → EReal) : EReal :=
  -(Ideal.log (Ideal.div (cosExp a p) (∑ k, cosExp a (n k))))

/-- The mean of the rows' losses. -/
def meanLoss (f : Fin 50000 → EReal) : EReal := Ideal.div (∑ i, f i) count

/-- Row `r` of tile `t`: row `400 t + r` of the whole. -/
def tileRow (t : Fin 125) (r : Fin 400) : Fin 50000 := ⟨400 * t.val + r.val, by omega⟩

/-- A sum over 50000 rows, taken 125 tiles of 400 rows at a time. -/
theorem sum_tiles {M : Type*} [AddCommMonoid M] (f : Fin 50000 → M) :
    ∑ t : Fin 125, ∑ r : Fin 400, f (tileRow t r) = ∑ i : Fin 50000, f i := by
  rw [← Finset.sum_product']
  refine Fintype.sum_equiv (finProdFinEquiv : Fin 125 × Fin 400 ≃ Fin 50000) _ _ fun x => ?_
  refine congrArg f (Fin.ext ?_)
  show 400 * x.1.val + x.2.val = x.2.val + 400 * x.1.val
  omega

/-- The running total kept tile after tile, from zero: `0 + q 0`, then `+ q (n + 1)`. -/
def running (q : ℕ → EReal) : ℕ → EReal
  | 0 => 0 + q 0
  | n + 1 => running q n + q (n + 1)

/-- The running total after tile `n` is the sum of the tiles up to `n`. -/
theorem running_eq_sum (q : ℕ → EReal) (n : ℕ) : running q n = ∑ t ∈ Finset.range (n + 1), q t := by
  induction n with
  | zero => simp [running]
  | succ n ih => rw [running, ih, Finset.sum_range_succ (n := n + 1)]

/-- Dividing by the word of `1.0` changes nothing, on every extended real. -/
theorem div_one_word (x : EReal) : Ideal.div x (Ideal.ofBits .f32 0x3F800000#32) = x := by
  have h1 : Ideal.ofBits .f32 0x3F800000#32 = ((1 : ℝ) : EReal) := by
    simp [Ideal.ofBits, Ideal.ieee, -EReal.coe_mul]; norm_num
  rw [h1, Ideal.div_coe one_ne_zero]
  simp

/-- Subtracting from zero negates, on every extended real. -/
theorem zero_sub_eq_neg (x : EReal) : (0 : EReal) - x = -x := by
  rw [sub_eq_add_neg, zero_add]

end Cert.Contrastive

end
-- ==== Proof.KernelPayload.lean ====
/-
  The body's arithmetic at the extended reals, read at an index.

  A tile holds 400 rows. With `a k` the anchor row `k` of the tile, `p k` its positive row and `n k j` its nine negative
  rows (all vectors of length 256, read off the tile's three blocks), the value the body stores into the running total's
  cell is the total before plus the sum over the tile's rows of the row loss of `(a k, p k, n k)`:
  the payload's lane sums are finite sums over the lane coordinate, its casts and broadcasts only re-index, its
  `0 − log q` is `−log q`, and everything else is pointwise.
-/
import proofs.«159660_j34359738990_2_alg».proof.Proof.Gen.KernelIdeal.Skeleton
import proofs.«159660_j34359738990_2_alg».proof.Proof.LibColumn
import proofs.«159660_j34359738990_2_alg».proof.Proof.LibMidAxis
import proofs.«159660_j34359738990_2_alg».proof.Proof.LibLaneSum
import proofs.«159660_j34359738990_2_alg».proof.Proof.Spec
import Idealize.ShloMosaic.Lib.Pipeline.Value

noncomputable section

open Idealize.ShloMosaic Idealize.ShloMosaic.ValueIdx

namespace Cert.KernelIdeal.Payload

open Cert.KernelIdeal Cert.KernelIdeal.Gen Cert.Contrastive

/-- The anchor block cast to its own shape is itself. -/
theorem anchor_eq (x2 : Vec Ideal S400x256 .f32) : k0_pay4 x2 = x2 := shapeCast_self x2 _

/-- The anchor block with a unit middle axis reads, at `(k, u, d)`, anchor row `k` at `d`. -/
theorem anchorSlab_apply (x2 : Vec Ideal S400x256 .f32) (k : Fin 400) (u : Fin 1) (d : Fin 256) :
    k0_pay5 x2 (ix3 k u d) = x2 (ix2 k d) := by
  unfold k0_pay5
  rw [anchor_eq]
  exact Cert.MidAxis.shapeCast_ab_a1b_apply x2 _ k u d

/-- The anchor's clamped norm, kept as a column: at `(k, u)` the clamped norm of anchor row `k`. -/
theorem anchorNorm_apply (x2 : Vec Ideal S400x256 .f32) (k : Fin 400) (u : Fin 1) :
    k0_pay6 x2 (ix2 k u) = clampNorm fun d => x2 (ix2 k d) := by
  unfold k0_pay6 clampNorm
  rw [anchor_eq]
  refine congrArg (fun s => max (Ideal.sqrt s) eps) ?_
  refine (Cert.GraphConv.Column.shapeCast_a_a1_apply _ _ k u).trans ?_
  exact Cert.LaneSum.sum_last2 _ _ _ _ _ k

/-- `exp` of the similarity of anchor row `k` and positive row `k`. -/
theorem posExp_apply (x0 : Vec Ideal S400x1x256 .f32) (x2 : Vec Ideal S400x256 .f32) (k : Fin 400) (u : Fin 1) :
    k0_pay7 x0 x2 (ix2 k u) = cosExp (fun d => x2 (ix2 k d)) (fun d => x0 (ix3 k u d)) := by
  unfold k0_pay7 cosExp
  refine congrArg Ideal.exp ?_
  refine congrArg₂ Ideal.div ?_ (congrArg₂ (· * ·) (anchorNorm_apply x2 k u) ?_)
  · refine (Cert.LaneSum.sum_last3 _ _ _ _ _ k u).trans ?_
    refine Finset.sum_congr rfl fun d _ => ?_
    exact congrArg₂ (· * ·) (anchorSlab_apply x2 k u d) (congrFun (shapeCast_self x0 _) _)
  · unfold clampNorm
    refine congrArg (fun s => max (Ideal.sqrt s) eps) ?_
    refine (Cert.LaneSum.sum_last3 _ _ _ _ _ k u).trans ?_
    refine Finset.sum_congr rfl fun d _ => ?_
    exact congrArg₂ (· * ·) (congrFun (shapeCast_self x0 _) _) (congrFun (shapeCast_self x0 _) _)

/-- The sum over the nine negatives of `exp` of the similarity of anchor row `k` and negative row `(k, j)`. -/
theorem negSum_apply (x1 : Vec Ideal S400x9x256 .f32) (x2 : Vec Ideal S400x256 .f32) (k : Fin 400) :
    k0_pay8 x1 x2 (ix1 k) = ∑ j : Fin 9, cosExp (fun d => x2 (ix2 k d)) (fun d => x1 (ix3 k j d)) := by
  unfold k0_pay8
  refine (Cert.LaneSum.sum_last2 _ _ _ _ _ k).trans ?_
  refine Finset.sum_congr rfl fun j _ => ?_
  unfold cosExp
  refine congrArg Ideal.exp ?_
  refine congrArg₂ Ideal.div ?_ (congrArg₂ (· * ·) ?_ ?_)
  · refine (Cert.LaneSum.sum_last3 _ _ _ _ _ k j).trans ?_
    refine Finset.sum_congr rfl fun d _ => ?_
    refine congrArg₂ (· * ·) ?_ (congrFun (shapeCast_self x1 _) _)
    exact (Cert.MidAxis.broadcastTo_a1b_acb_apply _ _ k j d).trans (anchorSlab_apply x2 k 0 d)
  · exact (Cert.GraphConv.Column.broadcastTo_a1_ab_apply _ _ k j).trans (anchorNorm_apply x2 k 0)
  · unfold clampNorm
    refine congrArg (fun s => max (Ideal.sqrt s) eps) ?_
    refine (Cert.LaneSum.sum_last3 _ _ _ _ _ k j).trans ?_
    refine Finset.sum_congr rfl fun d _ => ?_
    exact congrArg₂ (· * ·) (congrFun (shapeCast_self x1 _) _) (congrFun (shapeCast_self x1 _) _)

/-- The loss of row `k` of the tile, as the body computes it: `0 − log (numerator / denominator)`. -/
theorem rowTerm_apply (x0 : Vec Ideal S400x1x256 .f32) (x1 : Vec Ideal S400x9x256 .f32) (x2 : Vec Ideal S400x256 .f32)
    (k : Fin 400) (u : Fin 1) :
    Ideal.ofBits .f32 0x00000000#32
        - Ideal.log (Ideal.div (k0_pay7 x0 x2 (ix2 k u)) (shapeCast S400x1 (k0_pay8 x1 x2) shapeCasts_S400_S400x1 (ix2 k u)))
      = rowLoss (fun d => x2 (ix2 k d)) (fun d => x0 (ix3 k u d)) (fun j d => x1 (ix3 k j d)) := by
  rw [Ideal.ofBits_zero_f32, zero_sub_eq_neg, posExp_apply, Cert.GraphConv.Column.shapeCast_a_a1_apply, negSum_apply]
  rfl

/-- THE STEP: the cell after a point holds the total before plus the sum of the tile's 400 row losses. -/
theorem step_apply (x0 : Vec Ideal S400x1x256 .f32) (x1 : Vec Ideal S400x9x256 .f32) (x2 : Vec Ideal S400x256 .f32)
    (acc : Vec Ideal S1x1 .f32) (p q : Fin 1) :
    k0_pay1 (k0_pay7 x0 x2) (k0_pay8 x1 x2) acc (ix2 p q)
      = acc (ix2 p q) + ∑ k : Fin 400, rowLoss (fun d => x2 (ix2 k d)) (fun d => x0 (ix3 k p d)) (fun j d => x1 (ix3 k j d)) := by
  unfold k0_pay1
  refine (congrFun (shapeCast_self _ _) _).trans ?_
  refine congrArg (acc (ix2 p q) + ·) ?_
  refine (Cert.GraphConv.Column.shapeCast_a_a1_apply _ _ p q).trans ?_
  refine (Cert.LaneSum.sum_first2 _ _ _ _ _ p).trans ?_
  refine Finset.sum_congr rfl fun k _ => ?_
  exact rowTerm_apply x0 x1 x2 k p

/-- The zero the first point stores reads `0`. -/
theorem zero_apply (j : S1x1.Idx) : k0_pay3 (F := Ideal) j = 0 := by
  unfold k0_pay3
  refine (congrFun (shapeCast_self _ _) _).trans ?_
  exact Ideal.ofBits_zero_f32

/-- The last point's quotient: the cell's value divided by the row count. -/
theorem mean_apply (v : Vec Ideal S1x1 .f32) (j : S1x1.Idx) : k0_pay2 v j = Ideal.div (v j) count := rfl

end Cert.KernelIdeal.Payload

end
-- ==== Proof.LibRowGather.lean ====
/-
  A gather of whole rows of a table, read at an index.

  What `x[idx]` of a table `x : [N, D]` at an integer array `idx : [R, C]` lowers to: a gather with offset axis 2,
  collapsed operand axis 0, start-index map `[0]`, slice sizes `[1, D]` and the index vector on axis 2 of the start
  indices taken as `[R, C, 1]`. Result element `(r, c, e)` is the table at row `idx[r, c, 0]` — read as a signed
  integer and clamped into `[0, N − 1]`, as the gather clamps every start index — and column `e`.
-/
import Idealize.ShloMosaic.Lib.ValueIdx

namespace Cert.RowGather

open Idealize.ShloMosaic Idealize.ShloMosaic.ValueIdx

variable {α : Type}

/-- Those dimension numbers, for a table `[N, D]`, start indices `[R, C, 1]` and a result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The table row that result row `(r, c)` reads: the start index there, signed, clamped into `[0, N − 1]`. -/
def rowOf {N R C w : Nat} (hN : 0 < N) (idx : IVec ⟨3, ![R, C, 1]⟩ w) (r : Fin R) (c : Fin C) : Fin N :=
  ⟨min (idx (ix3 r c (0 : Fin 1))).toInt.toNat (N - 1), by omega⟩

/-- THE ROW GATHER READ AT `(r, c, e)`: the table at the clamped start row and column `e`. -/
theorem gather_row_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowDims N D R C wf) x idx (ix3 r c e) = x (ix2 (rowOf hN idx r c) e) := by
  have h0 : (rowDims N D R C wf).start (ix3 r c e) idx (0 : Fin 2) + (rowDims N D R C wf).batchCoord (ix3 r c e) (0 : Fin 2)
      + (rowDims N D R C wf).offCoord (ix3 r c e) (0 : Fin 2) = (rowOf hN idx r c).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c e) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  have h1 : (rowDims N D R C wf).start (ix3 r c e) idx (1 : Fin 2) + (rowDims N D R C wf).batchCoord (ix3 r c e) (1 : Fin 2)
      + (rowDims N D R C wf).offCoord (ix3 r c e) (1 : Fin 2) = e.val := by
    rw [GatherDims.batchCoord_eq_zero _ _ _ List.not_mem_nil]
    have hst : (rowDims N D R C wf).start (ix3 r c e) idx (1 : Fin 2) = 0 := by
      unfold GatherDims.start
      rw [dif_neg (show (1 : Fin 2) ∉ ([0] : List (Fin 2)) from by decide)]
    rw [hst, Nat.add_zero, Nat.zero_add]
    rfl
  unfold Host.gather
  congr 1
  funext a
  refine Fin.ext ?_
  match a with
  | ⟨0, _⟩ => exact h0
  | ⟨1, _⟩ => exact h1

end Cert.RowGather
-- ==== Proof.Rows.lean ====
/-
  The rows the loss is taken over, as functions of the two arguments.

  The feature table `X` has 200000 rows of length 256; the tuple array `tp` has 50000 rows of 10 row numbers. Row `i`
  of the loss has as its anchor row `i` of the table, as its positive the table row named by `tp[i, 0]`, and as its nine
  negatives the table rows named by `tp[i, 1 .. 9]`. A row number is first normalised the way array indexing does it (a
  negative number counts from the end: 200000 is added), then read as a signed integer and clamped into the table, as a
  gather clamps its start indices.
-/
import proofs.«159660_j34359738990_2_alg».proof.Proof.Spec
import proofs.«159660_j34359738990_2_alg».proof.Proof.LibRowGather

noncomputable section

namespace Cert.Contrastive

open Idealize.ShloMosaic Idealize.ShloMosaic.ValueIdx

/-- Index normalisation: a negative row number counts from the end of the 200000 rows. -/
def normIdx (w : BitVec 32) : BitVec 32 := Scalar.select (IntOp.cmpi .slt w 0#32) (IntOp.addi w 200000#32) w

/-- The table row that entry `(i, k)` of the tuple array names. -/
def tupRow (tp : (⟨2, ![50000, 10]⟩ : Shape).Idx → BitVec 32) (i : Fin 50000) (k : Fin 10) : Fin 200000 :=
  ⟨min (normIdx (tp (ix2 i k))).toInt.toNat (200000 - 1), by omega⟩

variable {α : Type}

/-- Anchor `i`: row `i` of the table. -/
def anchorV (X : (⟨2, ![200000, 256]⟩ : Shape).Idx → α) (i : Fin 50000) : Fin 256 → α :=
  fun d => X (ix2 (⟨i.val, by omega⟩ : Fin 200000) d)

/-- Tuple vector `(i, k)`: the table row entry `(i, k)` names. -/
def tupleV (X : (⟨2, ![200000, 256]⟩ : Shape).Idx → α) (tp : (⟨2, ![50000, 10]⟩ : Shape).Idx → BitVec 32)
    (i : Fin 50000) (k : Fin 10) : Fin 256 → α :=
  fun d => X (ix2 (tupRow tp i k) d)

/-- Negative `j` of a row is its tuple entry `1 + j`. -/
def negIx (j : Fin 9) : Fin 10 := ⟨1 + j.val, by omega⟩

/-- The loss of row `i`. -/
def lossOf (X : (⟨2, ![200000, 256]⟩ : Shape).Idx → EReal) (tp : (⟨2, ![50000, 10]⟩ : Shape).Idx → BitVec 32)
    (i : Fin 50000) : EReal :=
  rowLoss (anchorV X i) (tupleV X tp i 0) (fun j => tupleV X tp i (negIx j))

/-- The result: the mean of the 50000 rows' losses. -/
def result (X : (⟨2, ![200000, 256]⟩ : Shape).Idx → EReal) (tp : (⟨2, ![50000, 10]⟩ : Shape).Idx → BitVec 32) : EReal :=
  meanLoss (lossOf X tp)

/-- A row gather whose start index at `(r, c)` is the normalised entry `w` reads the row `w` names. -/
theorem rowOf_eq {R C : ℕ} (idx : IVec ⟨3, ![R, C, 1]⟩ 32) (r : Fin R) (c : Fin C) (w : BitVec 32)
    (h : idx (ix3 r c (0 : Fin 1)) = normIdx w) :
    Cert.RowGather.rowOf (N := 200000) (by decide) idx r c = ⟨min (normIdx w).toInt.toNat (200000 - 1), by omega⟩ := by
  unfold Cert.RowGather.rowOf
  exact Fin.ext (congrArg (fun v : BitVec 32 => min v.toInt.toNat (200000 - 1)) h)

/-- A sum over the indices of a vector of length `n` is the sum over its one coordinate. -/
theorem sum_idx1 {M : Type*} [AddCommMonoid M] {n : ℕ} (f : (⟨1, ![n]⟩ : Shape).Idx → M) :
    ∑ j : (⟨1, ![n]⟩ : Shape).Idx, f j = ∑ i : Fin n, f (ix1 i) := by
  refine (Fintype.sum_equiv (⟨ix1, fun j => j 0, fun _ => rfl, fun j => (eq_ix1 j).symm⟩ : Fin n ≃ (⟨1, ![n]⟩ : Shape).Idx) _ _ fun _ => rfl).symm

end Cert.Contrastive

end
-- ==== Proof.KernelHost.lean ====
/-
  What the kernel's region finds in its three input arrays, and what a tile's blocks read.

  Before the region the program slices the tuple array into its first column and its last nine, normalises each (a
  negative row number counts from the end), gathers the table rows they name, and slices the table's first 50000 rows:
  so the positives' array holds at `(i, ·, d)` the table row named by tuple entry `(i, 0)`, the negatives' array at
  `(i, j, d)` the row named by entry `(i, 1 + j)`, and the anchors' array row `i` of the table. At grid point `t` each
  window's block is rows `400 t … 400 t + 399` of its array.
-/
import proofs.«159660_j34359738990_2_alg».proof.Proof.Gen.KernelIdeal.Frame.Runs
import proofs.«159660_j34359738990_2_alg».proof.Proof.Rows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.HostSide

open Cert.KernelIdeal Cert.KernelIdeal.Gen Cert.Contrastive

variable {F : FTy → Type} [FloatOps F]

/-! ### The start indices -/

/-- The positives' start indices as the program computes them: column 0 of the tuples, normalised, with a unit axis. -/
def posStart (tp : (⟨S50000x10, .i32⟩ : BufTy).Contents (Elt F)) : (⟨S50000x1x1, .i32⟩ : BufTy).Contents (Elt F) :=
  broadcastInDim S50000x1x1 ![0, 1] bcast_S50000x1_S50000x1x1_0_1
    (select (cmpi .slt (extractStridedSlice S50000x1 ![0, 0] tp slices_S50000x10_S50000x1_0_0)
        (broadcastInDim S50000x1 ![] bcast_S_S50000x1 (constantI S_ 32 0#32)))
      (addi (extractStridedSlice S50000x1 ![0, 0] tp slices_S50000x10_S50000x1_0_0)
        (broadcastInDim S50000x1 ![] bcast_S_S50000x1 (constantI S_ 32 200000#32)))
      (extractStridedSlice S50000x1 ![0, 0] tp slices_S50000x10_S50000x1_0_0))

/-- The negatives' start indices: columns 1 … 9 of the tuples, normalised, with a unit axis. -/
def negStart (tp : (⟨S50000x10, .i32⟩ : BufTy).Contents (Elt F)) : (⟨S50000x9x1, .i32⟩ : BufTy).Contents (Elt F) :=
  broadcastInDim S50000x9x1 ![0, 1] bcast_S50000x9_S50000x9x1_0_1
    (select (cmpi .slt (extractStridedSlice S50000x9 ![0, 1] tp slices_S50000x10_S50000x9_0_1)
        (broadcastInDim S50000x9 ![] bcast_S_S50000x9 (constantI S_ 32 0#32)))
      (addi (extractStridedSlice S50000x9 ![0, 1] tp slices_S50000x10_S50000x9_0_1)
        (broadcastInDim S50000x9 ![] bcast_S_S50000x9 (constantI S_ 32 200000#32)))
      (extractStridedSlice S50000x9 ![0, 1] tp slices_S50000x10_S50000x9_0_1))

/-- At `(i, u, 0)` the positives' start index is the normalised tuple entry `(i, 0)`. -/
theorem posStart_apply (tp : (⟨S50000x10, .i32⟩ : BufTy).Contents (Elt F)) (i : Fin 50000) (u : Fin 1) :
    posStart (F := F) tp (ix3 i u (0 : Fin 1)) = normIdx (tp (ix2 i (0 : Fin 10))) := by
  unfold posStart
  refine (broadcastInDim_apply _ bcast_S50000x1_S50000x1x1_0_1 _ (ix3 i u (0 : Fin 1)) (ix2 i u) (fun a => match a with
    | ⟨0, _⟩ => by show i.val = if (50000 : Nat) = 1 then 0 else i.val; rw [if_neg (by decide)]
    | ⟨1, _⟩ => by show u.val = if (1 : Nat) = 1 then 0 else u.val; rw [if_pos rfl]; omega)).trans ?_
  have hs : extractStridedSlice S50000x1 ![0, 0] tp slices_S50000x10_S50000x1_0_0 (ix2 i u) = tp (ix2 i (0 : Fin 10)) :=
    extractStridedSlice_apply ![0, 0] tp slices_S50000x10_S50000x1_0_0 (ix2 i u) (ix2 i (0 : Fin 10)) (fun a => match a with
      | ⟨0, _⟩ => by show i.val = 0 + i.val; omega
      | ⟨1, _⟩ => by show (0 : Nat) = 0 + u.val; omega)
  show Scalar.select (IntOp.cmpi .slt (extractStridedSlice S50000x1 ![0, 0] tp slices_S50000x10_S50000x1_0_0 (ix2 i u)) 0#32)
    (IntOp.addi (extractStridedSlice S50000x1 ![0, 0] tp slices_S50000x10_S50000x1_0_0 (ix2 i u)) 200000#32)
    (extractStridedSlice S50000x1 ![0, 0] tp slices_S50000x10_S50000x1_0_0 (ix2 i u)) = _
  rw [hs]
  rfl

/-- At `(i, j, 0)` the negatives' start index is the normalised tuple entry `(i, 1 + j)`. -/
theorem negStart_apply (tp : (⟨S50000x10, .i32⟩ : BufTy).Contents (Elt F)) (i : Fin 50000) (j : Fin 9) :
    negStart (F := F) tp (ix3 i j (0 : Fin 1)) = normIdx (tp (ix2 i (negIx j))) := by
  unfold negStart
  refine (broadcastInDim_apply _ bcast_S50000x9_S50000x9x1_0_1 _ (ix3 i j (0 : Fin 1)) (ix2 i j) (fun a => match a with
    | ⟨0, _⟩ => by show i.val = if (50000 : Nat) = 1 then 0 else i.val; rw [if_neg (by decide)]
    | ⟨1, _⟩ => by show j.val = if (9 : Nat) = 1 then 0 else j.val; rw [if_neg (by decide)])).trans ?_
  have hs : extractStridedSlice S50000x9 ![0, 1] tp slices_S50000x10_S50000x9_0_1 (ix2 i j) = tp (ix2 i (negIx j)) :=
    extractStridedSlice_apply ![0, 1] tp slices_S50000x10_S50000x9_0_1 (ix2 i j) (ix2 i (negIx j)) (fun a => match a with
      | ⟨0, _⟩ => by show i.val = 0 + i.val; omega
      | ⟨1, _⟩ => by show 1 + j.val = 1 + j.val; rfl)
  show Scalar.select (IntOp.cmpi .slt (extractStridedSlice S50000x9 ![0, 1] tp slices_S50000x10_S50000x9_0_1 (ix2 i j)) 0#32)
    (IntOp.addi (extractStridedSlice S50000x9 ![0, 1] tp slices_S50000x10_S50000x9_0_1 (ix2 i j)) 200000#32)
    (extractStridedSlice S50000x9 ![0, 1] tp slices_S50000x10_S50000x9_0_1 (ix2 i j)) = _
  rw [hs]
  rfl

/-! ### The three arrays as the region finds them -/

variable (m : (ℓ : Loc nD τ sig) → Buf (Elt F) ℓ)

/-- The positives' array is the gather of the table at the positives' start indices. -/
theorem V_pos (c : Dev nD) : (V m c main_v8 : S50000x1x256.Idx → Elt F .f32)
    = Host.gather gather_S200000x256_S50000x1x1_S50000x1x256_2_0_n_n_0_2_1256 (m ((c : Thread nD τ).loc main_arg0))
        (posStart (F := F) (m ((c : Thread nD τ).loc main_arg1))) := by
  show StableHlo.after hostOps0 (fun b => m (c, b)) (Proc.devRef .tc main_v8) = _
  after_results
  rfl

/-- The negatives' array is the gather of the table at the negatives' start indices. -/
theorem V_neg (c : Dev nD) : (V m c main_v15 : S50000x9x256.Idx → Elt F .f32)
    = Host.gather gather_S200000x256_S50000x9x1_S50000x9x256_2_0_n_n_0_2_1256 (m ((c : Thread nD τ).loc main_arg0))
        (negStart (F := F) (m ((c : Thread nD τ).loc main_arg1))) := by
  show StableHlo.after hostOps0 (fun b => m (c, b)) (Proc.devRef .tc main_v15) = _
  after_results
  rfl

/-- The anchors' array is the table's first 50000 rows. -/
theorem V_anc (c : Dev nD) : (V m c main_v16 : S50000x256.Idx → Elt F .f32)
    = extractStridedSlice S50000x256 ![0, 0] (m ((c : Thread nD τ).loc main_arg0)) slices_S200000x256_S50000x256_0_0 := by
  show StableHlo.after hostOps0 (fun b => m (c, b)) (Proc.devRef .tc main_v16) = _
  after_results

/-- The positives' array at `(i, u, d)`: tuple vector `(i, 0)` at `d`. -/
theorem pos_apply (c : Dev nD) (i : Fin 50000) (u : Fin 1) (d : Fin 256) :
    (V m c main_v8 : S50000x1x256.Idx → Elt F .f32) (ix3 i u d)
      = tupleV (m ((c : Thread nD τ).loc main_arg0)) (m ((c : Thread nD τ).loc main_arg1)) i 0 d := by
  rw [V_pos]
  refine (Cert.RowGather.gather_row_apply (N := 200000) (by decide) _ _ _ i u d).trans ?_
  exact congrArg (fun r => m ((c : Thread nD τ).loc main_arg0) (ix2 r d)) (rowOf_eq _ i u _ (posStart_apply _ i u))

/-- The negatives' array at `(i, j, d)`: tuple vector `(i, 1 + j)` at `d`. -/
theorem neg_apply (c : Dev nD) (i : Fin 50000) (j : Fin 9) (d : Fin 256) :
    (V m c main_v15 : S50000x9x256.Idx → Elt F .f32) (ix3 i j d)
      = tupleV (m ((c : Thread nD τ).loc main_arg0)) (m ((c : Thread nD τ).loc main_arg1)) i (negIx j) d := by
  rw [V_neg]
  refine (Cert.RowGather.gather_row_apply (N := 200000) (by decide) _ _ _ i j d).trans ?_
  exact congrArg (fun r => m ((c : Thread nD τ).loc main_arg0) (ix2 r d)) (rowOf_eq _ i j _ (negStart_apply _ i j))

/-- The anchors' array at `(i, d)`: anchor `i` at `d`. -/
theorem anc_apply (c : Dev nD) (i : Fin 50000) (d : Fin 256) :
    (V m c main_v16 : S50000x256.Idx → Elt F .f32) (ix2 i d) = anchorV (m ((c : Thread nD τ).loc main_arg0)) i d := by
  rw [V_anc]
  exact extractStridedSlice_apply ![0, 0] _ slices_S200000x256_S50000x256_0_0 (ix2 i d) (ix2 (⟨i.val, by omega⟩ : Fin 200000) d)
    (fun a => match a with
      | ⟨0, _⟩ => by show i.val = 0 + i.val; omega
      | ⟨1, _⟩ => by show d.val = 0 + d.val; omega)

/-! ### A tile's blocks -/

/-- Every window's block index at point `t` is `t` along the rows and `0` elsewhere. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0)

/-- A grid point as a tile number. -/
def tileOf (t : Fin cfg0.N) : Fin 125 := ⟨t.val, lt_of_lt_of_eq t.isLt (show cfg0.N = 125 from N_0)⟩

/-- The positives' block at point `t` reads rows `400 t + r` of the positives' array. -/
theorem blk_pos_apply (c : Dev nD) (t : Fin cfg0.N) (r : Fin 400) (u : Fin 1) (d : Fin 256) :
    (iblk m c 0 t : Vec F S400x1x256 .f32) (ix3 r u d)
      = (V m c main_v8 : S50000x1x256.Idx → Elt F .f32) (ix3 (tileRow (tileOf t) r) u d) := by
  obtain ⟨h0, h1, h2, -⟩ := index_facts t
  unfold iblk
  rw [View.read_apply]
  show V m c main_v8 _ = V m c main_v8 _
  refine congrArg (V m c main_v8) (funext fun a => Fin.ext ?_)
  match a with
  | ⟨0, _⟩ => show win0_0.index t 0 * 400 + 1 * r.val = 400 * t.val + r.val; rw [h0]; omega
  | ⟨1, _⟩ => show win0_0.index t 1 * 1 + 1 * u.val = u.val; rw [h1]; omega
  | ⟨2, _⟩ => show win0_0.index t 2 * 256 + 1 * d.val = d.val; rw [h2]; omega

/-- The negatives' block at point `t` reads rows `400 t + r` of the negatives' array. -/
theorem blk_neg_apply (c : Dev nD) (t : Fin cfg0.N) (r : Fin 400) (j : Fin 9) (d : Fin 256) :
    (iblk m c 1 t : Vec F S400x9x256 .f32) (ix3 r j d)
      = (V m c main_v15 : S50000x9x256.Idx → Elt F .f32) (ix3 (tileRow (tileOf t) r) j d) := by
  obtain ⟨-, -, -, h0, h1, h2, -⟩ := index_facts t
  unfold iblk
  rw [View.read_apply]
  show V m c main_v15 _ = V m c main_v15 _
  refine congrArg (V m c main_v15) (funext fun a => Fin.ext ?_)
  match a with
  | ⟨0, _⟩ => show win0_1.index t 0 * 400 + 1 * r.val = 400 * t.val + r.val; rw [h0]; omega
  | ⟨1, _⟩ => show win0_1.index t 1 * 9 + 1 * j.val = j.val; rw [h1]; omega
  | ⟨2, _⟩ => show win0_1.index t 2 * 256 + 1 * d.val = d.val; rw [h2]; omega

/-- The anchors' block at point `t` reads rows `400 t + r` of the anchors' array. -/
theorem blk_anc_apply (c : Dev nD) (t : Fin cfg0.N) (r : Fin 400) (d : Fin 256) :
    (iblk m c 2 t : Vec F S400x256 .f32) (ix2 r d)
      = (V m c main_v16 : S50000x256.Idx → Elt F .f32) (ix2 (tileRow (tileOf t) r) d) := by
  obtain ⟨-, -, -, -, -, -, h0, h1⟩ := index_facts t
  unfold iblk
  rw [View.read_apply]
  show V m c main_v16 _ = V m c main_v16 _
  refine congrArg (V m c main_v16) (funext fun a => Fin.ext ?_)
  match a with
  | ⟨0, _⟩ => show win0_2.index t 0 * 400 + 1 * r.val = 400 * t.val + r.val; rw [h0]; omega
  | ⟨1, _⟩ => show win0_2.index t 1 * 256 + 1 * d.val = d.val; rw [h1]; omega

end Cert.KernelIdeal.HostSide

end
-- ==== Proof.KernelValue.lean ====
/-
  The kernel's run: its result is the mean row loss.

  Point by point the running total's cell holds `0 + L₀`, then `+ L₁`, …, where `Lₜ` is the sum of the losses of tile
  `t`'s 400 rows (induction on the point: the first point steps from zero, every later one from the cell before).
  After the last point, 124, the cell holds the sum over all 125 tiles, which regrouped is the sum over all 50000 rows;
  that point also stores the total divided by the row count into the output cell, the only point at which the 1×1
  output array is written back, and the block it writes is the whole array. The one operation after the region
  reshapes that 1×1 array to a scalar.
-/
import proofs.«159660_j34359738990_2_alg».proof.Proof.Gen.KernelIdeal.Frame
import proofs.«159660_j34359738990_2_alg».proof.Proof.KernelPieces
import proofs.«159660_j34359738990_2_alg».proof.Proof.KernelPayload
import proofs.«159660_j34359738990_2_alg».proof.Proof.KernelHost
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Contrastive Cert.KernelIdeal.HostSide

variable (m : (ℓ : Loc nD τ sig) → Buf (Elt Ideal) ℓ) (ρ : Dev nD → PrngReg)

/-- The feature table and the tuple array on core `c`, as launched. -/
abbrev feat (c : Dev nD) : S200000x256.Idx → EReal := m ((c : Thread nD τ).loc main_arg0)
abbrev tups (c : Dev nD) : S50000x10.Idx → BitVec 32 := m ((c : Thread nD τ).loc main_arg1)

/-- The sum of the losses of tile `n`'s 400 rows (zero past the grid). -/
def tileLoss (c : Dev nD) (n : ℕ) : EReal :=
  if h : n < 125 then ∑ r : Fin 400, lossOf (feat m c) (tups m c) (tileRow ⟨n, h⟩ r) else 0

/-- One step at point `t` adds tile `t`'s loss to the cell: the blocks' rows are the tile's anchors, positives and
    negatives. -/
theorem step_tile (c : Dev nD) (t : Fin cfg0.N) (acc : Vec Ideal S1x1 .f32) (p q : Fin 1) :
    Pieces.step (iblk m c 0 t) (iblk m c 1 t) (iblk m c 2 t) acc (ix2 p q) = acc (ix2 p q) + tileLoss m c t.val := by
  refine (Payload.step_apply (iblk m c 0 t) (iblk m c 1 t) (iblk m c 2 t) acc p q).trans ?_
  refine congrArg (acc (ix2 p q) + ·) ?_
  unfold tileLoss
  rw [dif_pos (lt_of_lt_of_eq t.isLt (show cfg0.N = 125 from N_0))]
  refine Finset.sum_congr rfl fun r _ => ?_
  have ha : (fun d => (iblk m c 2 t : Vec Ideal S400x256 .f32) (ix2 r d)) = anchorV (feat m c) (tileRow (tileOf t) r) :=
    funext fun d => (blk_anc_apply m c t r d).trans (anc_apply m c _ d)
  have hp : (fun d => (iblk m c 0 t : Vec Ideal S400x1x256 .f32) (ix3 r p d))
      = tupleV (feat m c) (tups m c) (tileRow (tileOf t) r) 0 :=
    funext fun d => (blk_pos_apply m c t r p d).trans (pos_apply m c _ p d)
  have hn : (fun j d => (iblk m c 1 t : Vec Ideal S400x9x256 .f32) (ix3 r j d))
      = fun j => tupleV (feat m c) (tups m c) (tileRow (tileOf t) r) (negIx j) :=
    funext fun j => funext fun d => (blk_neg_apply m c t r j d).trans (neg_apply m c _ j d)
  exact (congrArg (fun a => rowLoss a _ _) ha).trans
    ((congrArg (fun v => rowLoss _ v _) hp).trans (congrArg (fun v => rowLoss _ _ v) hn))

/-! ### The cell, case by case -/

theorem cell_first (c : Dev nD) (t : Fin cfg0.N) (h0 : t.val % 125 = 0) (h1 : ¬t.val % 125 = 124) :
    (outsAt0 m c t.val t.isLt).2 = Pieces.step (iblk m c 0 t) (iblk m c 1 t) (iblk m c 2 t) (k0_pay3 (F := Ideal)) :=
  (congrArg Prod.snd (outsAt0_A m c t h0 h1)).trans
    (Pieces.cell_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

theorem cell_mid (c : Dev nD) (t : Fin cfg0.N) (h0 : ¬t.val % 125 = 0) (h1 : ¬t.val % 125 = 124) :
    (outsAt0 m c t.val t.isLt).2 = Pieces.step (iblk m c 0 t) (iblk m c 1 t) (iblk m c 2 t) (outsAt0 m c (t.val - 1) (Nat.lt_of_le_of_lt (Nat.sub_le _ _) t.isLt)).2 :=
  (congrArg Prod.snd (outsAt0_B m c t h0 h1)).trans
    (Pieces.cell_mid c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

theorem cell_last (c : Dev nD) (t : Fin cfg0.N) (h0 : ¬t.val % 125 = 0) (h1 : t.val % 125 = 124) :
    (outsAt0 m c t.val t.isLt).2 = Pieces.step (iblk m c 0 t) (iblk m c 1 t) (iblk m c 2 t) (outsAt0 m c (t.val - 1) (Nat.lt_of_le_of_lt (Nat.sub_le _ _) t.isLt)).2 :=
  (congrArg Prod.snd (outsAt0_C m c t h0 h1)).trans
    (Pieces.cell_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

theorem out_last (c : Dev nD) (t : Fin cfg0.N) (h0 : ¬t.val % 125 = 0) (h1 : t.val % 125 = 124) :
    (outsAt0 m c t.val t.isLt).1 = k0_pay2 (Pieces.step (iblk m c 0 t) (iblk m c 1 t) (iblk m c 2 t) (outsAt0 m c (t.val - 1) (Nat.lt_of_le_of_lt (Nat.sub_le _ _) t.isLt)).2) :=
  (congrArg Prod.fst (outsAt0_C m c t h0 h1)).trans
    (Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

/-! ### The running total -/

/-- After point `n` the cell holds the running total of the tiles' losses up to `n`. -/
theorem cell_eq (c : Dev nD) : ∀ (n : ℕ) (hn : n < cfg0.N) (j : S1x1.Idx),
    (outsAt0 m c n hn).2 j = running (tileLoss m c) n := by
  intro n
  induction n with
  | zero =>
    intro hn j
    obtain ⟨p, q, rfl⟩ : ∃ (p : Fin 1) (q : Fin 1), j = ix2 p q := ⟨j 0, j 1, eq_ix2 j⟩
    have e : (outsAt0 m c 0 hn).2 = Pieces.step (iblk m c 0 ⟨0, hn⟩) (iblk m c 1 ⟨0, hn⟩) (iblk m c 2 ⟨0, hn⟩) (k0_pay3 (F := Ideal)) :=
      cell_first m c ⟨0, hn⟩ rfl (by show ¬(0 : ℕ) % 125 = 124; omega)
    rw [e, step_tile m c ⟨0, hn⟩ _ p q, Payload.zero_apply]
    rfl
  | succ n ih =>
    intro hn j
    obtain ⟨p, q, rfl⟩ : ∃ (p : Fin 1) (q : Fin 1), j = ix2 p q := ⟨j 0, j 1, eq_ix2 j⟩
    have hN : cfg0.N = 125 := N_0
    have h0 : ¬(⟨n + 1, hn⟩ : Fin cfg0.N).val % 125 = 0 := by show ¬(n + 1) % 125 = 0; omega
    have e : (outsAt0 m c (n + 1) hn).2 = Pieces.step (iblk m c 0 ⟨n + 1, hn⟩) (iblk m c 1 ⟨n + 1, hn⟩) (iblk m c 2 ⟨n + 1, hn⟩) (outsAt0 m c n (Nat.lt_of_succ_lt hn)).2 := by
      by_cases h1 : (n + 1) % 125 = 124
      · exact cell_last m c ⟨n + 1, hn⟩ h0 h1
      · exact cell_mid m c ⟨n + 1, hn⟩ h0 h1
    rw [e, step_tile m c ⟨n + 1, hn⟩ _ p q, ih]
    rfl

/-- The running total after the last tile is the sum of all 50000 rows' losses. -/
theorem total_eq (c : Dev nD) : running (tileLoss m c) 124 = ∑ i : Fin 50000, lossOf (feat m c) (tups m c) i := by
  rw [running_eq_sum, Finset.sum_range (f := tileLoss m c) (n := 124 + 1), ← sum_tiles]
  refine Finset.sum_congr rfl fun t _ => ?_
  unfold tileLoss
  rw [dif_pos t.isLt]

/-! ### The output array -/

/-- The grid's last point. -/
def tLast : Fin cfg0.N := ⟨124, by rw [show cfg0.N = 125 from N_0]; decide⟩

/-- The 1×1 result array: the mean row loss. -/
def outCell (c : Dev nD) : Buf (Elt Ideal) ((c : Thread nD τ).loc main_v17) := fun _ => result (feat m c) (tups m c)

/-- After the last point the output cell holds the mean row loss. -/
theorem out_eq (c : Dev nD) : (outsAt0 m c tLast.val tLast.isLt).1 = outCell m c := by
  have hN : cfg0.N = 125 := N_0
  rw [out_last m c tLast (by show ¬(124 : ℕ) % 125 = 0; omega) rfl]
  funext j
  obtain ⟨p, q, rfl⟩ : ∃ (p : Fin 1) (q : Fin 1), j = ix2 p q := ⟨j 0, j 1, eq_ix2 j⟩
  rw [Payload.mean_apply, step_tile m c tLast _ p q, cell_eq m c (tLast.val - 1) _ (ix2 p q)]
  show Ideal.div (running (tileLoss m c) 124) count = meanLoss _
  rw [total_eq]
  rfl

/-- The one write-back, at the last point, writes it: the block is the whole 1×1 array. -/
theorem flushed_eq (c : Dev nD) (t : Fin cfg0.N) (hf : (cfg0.win 3).flush t = true) :
    (dats m 0 c).flushed 3 t = ((cfg0.win 3).blk t).view.read (Elt Ideal) (outCell m c) := by
  have hN : cfg0.N = 125 := N_0
  have h3 : t.val = 124 := by have := (flush0_3 t).mp hf; have := t.isLt; omega
  obtain rfl : t = tLast := Fin.ext h3
  show (cfg0.win 3).cut (grid0.coords tLast) ((dats m 0 c).after 3 tLast) = _
  rw [after0_3, out_eq]
  have hz' : (fun a => win0_3.index tLast a * main_v17.ty.shape.size a) = fun _ => 0 := funext fun a => by fin_cases a <;> decide
  exact (Memref.read_access_unit_zero (Elt Ideal) main_v17 hz' (fun a => by rw [congrFun hz' a]; simp) (outCell m c)).symm

/-- So the result array ends holding the mean row loss. -/
theorem final_o (c : Dev nD) : (dats m 0 c).arrAt 3 cfg0.N = outCell m c :=
  (dats m 0 c).arrAt_eq_of_cover 3 (outCell m c) (flushed_eq m c) fun i =>
    ⟨tLast, (flush0_3 tLast).mpr rfl, by
      show i ∈ ((View.whole main_v17).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-! ### The operation after the region, and the run -/

/-- The scalar result on core `c`. -/
def res (c : Dev nD) : Buf (Elt Ideal) ((c : Thread nD τ).loc main_v18) := fun _ => result (feat m c) (tups m c)

/-- The reshape after the region turns the 1×1 array into that scalar. -/
theorem tail_eq (c : Dev nD) : Pipeline.afterTail₀ cfgs (dats m) 0 (V0 m) [hostOps1] c main_v18 = res m c := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = outCell m c :=
    (Pipeline.withArrays_arr spec0 launch0.win.arr_inj c _ _ 3).trans (final_o m c)
  rw [hw]
  rfl

/-- THE RUN: the scalar result at the mean row loss, both arguments unchanged. -/
theorem run : θ_run defs (onTc (τ := τ) (main (F := Ideal))) ⟨m, fun _ => 0, ρ⟩ fun r => ∀ c : Dev nD,
      r.2.mem ((c : Thread nD τ).loc main_v18) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v18 (Pipeline.mem_restRefs_of main_v18 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference program computes the mean row loss.

  Stage by stage (the generated reading of each of the reference's operations at an index): the gathered array holds,
  at `(i, k, ·)`, the table row that tuple entry `(i, k)` names; the anchor slab holds row `i` of the table at every
  `k`; the two norms are the clamped norms of those vectors; the quotient, its `exp` and the division by the word of
  `1.0` give `exp` of the similarity; column 0 is the numerator and columns 1 … 9 sum to the denominator; and the
  negated logarithm of their quotient is the row's loss. The final reduction adds the 50000 row losses to zero and
  divides by the row count.
-/
import proofs.«159660_j34359738990_2_alg».proof.Proof.Gen.ReferenceIdeal.Read
import proofs.«159660_j34359738990_2_alg».proof.Proof.Rows

noncomputable section

open Idealize.ShloMosaic Idealize.ShloMosaic.ValueIdx

namespace Cert.ReferenceIdeal.RefValue

open Cert.ReferenceIdeal Cert.ReferenceIdeal.Gen Cert.ReferenceIdeal.Read Cert.Contrastive

variable (X : (⟨S200000x256, .f32⟩ : BufTy).Contents (Elt Ideal)) (tp : (⟨S50000x10, .i32⟩ : BufTy).Contents (Elt Ideal))

/-! ### The stages' index maps at indices written by coordinates -/

theorem e5 (i : Fin 50000) (k : Fin 10) (u : Fin 1) : idx_main_v5 (ix3 i k u) = ix2 i k :=
  funext fun a => Fin.ext (by match a with | ⟨0, _⟩ => rfl | ⟨1, _⟩ => rfl)
theorem e7 (i : Fin 50000) (d : Fin 256) : idx_main_v7 (ix2 i d) = ix2 (⟨i.val, by omega⟩ : Fin 200000) d :=
  funext fun a => Fin.ext (by match a with | ⟨0, _⟩ => rfl | ⟨1, _⟩ => rfl)
theorem e8 (i : Fin 50000) (u : Fin 1) (d : Fin 256) : idx_main_v8 (ix3 i u d) = ix2 i d :=
  funext fun a => Fin.ext (by match a with | ⟨0, _⟩ => rfl | ⟨1, _⟩ => rfl)
theorem e9 (i : Fin 50000) (k : Fin 10) (d : Fin 256) : idx_main_v9 (ix3 i k d) = ix3 i (0 : Fin 1) d :=
  funext fun a => Fin.ext (by match a with | ⟨0, _⟩ => rfl | ⟨1, _⟩ => rfl | ⟨2, _⟩ => rfl)
theorem e11 (i : Fin 50000) (k : Fin 10) (d : Fin 256) : idx_main_v11 (ix2 i k) d = ix3 i k d :=
  funext fun a => Fin.ext (by match a with | ⟨0, _⟩ => rfl | ⟨1, _⟩ => rfl | ⟨2, _⟩ => rfl)
theorem ec0 (i : Fin 50000) (u : Fin 1) (d : Fin 256) : idx_main_call0_v1 (ix2 i u) d = ix3 i u d :=
  funext fun a => Fin.ext (by match a with | ⟨0, _⟩ => rfl | ⟨1, _⟩ => rfl | ⟨2, _⟩ => rfl)
theorem ec1 (i : Fin 50000) (k : Fin 10) (d : Fin 256) : idx_main_call1_v1 (ix2 i k) d = ix3 i k d :=
  funext fun a => Fin.ext (by match a with | ⟨0, _⟩ => rfl | ⟨1, _⟩ => rfl | ⟨2, _⟩ => rfl)
theorem e18 (i : Fin 50000) (k : Fin 10) : idx_main_v18 (ix2 i k) = ix2 i (0 : Fin 1) :=
  funext fun a => Fin.ext (by match a with | ⟨0, _⟩ => rfl | ⟨1, _⟩ => rfl)
theorem e24 (i : Fin 50000) : idx_main_v24 (idx_main_v25 (ix1 i)) = ix2 i (0 : Fin 10) :=
  funext fun a => Fin.ext (by match a with | ⟨0, _⟩ => exact Nat.div_one _ | ⟨1, _⟩ => rfl)
theorem e26 (i : Fin 50000) (j : Fin 9) : idx_main_v26 (idx_main_v27 (ix1 i) j) = ix2 i (negIx j) :=
  funext fun a => Fin.ext (by match a with | ⟨0, _⟩ => rfl | ⟨1, _⟩ => rfl)

/-- The words of zero that the sums start from denote `0`. -/
theorem zero_word : FloatOps.ofBits (F := Ideal) .f32 0x00000000#32 = (0 : EReal) := Ideal.ofBits_zero_f32

/-! ### The stages -/

/-- The start index at `(i, k)`: the normalised tuple entry. -/
theorem start_apply (i : Fin 50000) (k : Fin 10) : val_main_v5 (F := Ideal) tp (ix3 i k (0 : Fin 1)) = normIdx (tp (ix2 i k)) := by
  rw [val_main_v5_apply, e5, val_main_v4_apply, val_main_v1_apply, val_main_v3_apply, val_main_v0_apply, val_main_v2_apply,
    val_main_c_apply, val_main_c_0_apply]
  rfl

/-- The gathered array at `(i, k, d)`: tuple vector `(i, k)` at `d`. -/
theorem tuple_apply (i : Fin 50000) (k : Fin 10) (d : Fin 256) :
    val_main_v6 (F := Ideal) X tp (ix3 i k d) = tupleV X tp i k d := by
  unfold val_main_v6
  refine (Cert.RowGather.gather_row_apply (N := 200000) (by decide) _ X (val_main_v5 (F := Ideal) tp) i k d).trans ?_
  exact congrArg (fun r => X (ix2 r d)) (rowOf_eq _ i k _ (start_apply tp i k))

/-- The anchor slab at `(i, u, d)`: anchor `i` at `d`. -/
theorem anchor8_apply (i : Fin 50000) (u : Fin 1) (d : Fin 256) : val_main_v8 (F := Ideal) X (ix3 i u d) = anchorV X i d := by
  rw [val_main_v8_apply, e8, val_main_v7_apply, e7]
  rfl

/-- The anchor repeated for every tuple entry: at `(i, k, d)` anchor `i` at `d`. -/
theorem anchor9_apply (i : Fin 50000) (k : Fin 10) (d : Fin 256) : val_main_v9 (F := Ideal) X (ix3 i k d) = anchorV X i d := by
  rw [val_main_v9_apply, e9, anchor8_apply]

/-- The anchor's clamped norm. -/
theorem normA_apply (i : Fin 50000) (u : Fin 1) : val_main_v14 (F := Ideal) X (ix2 i u) = clampNorm (anchorV X i) := by
  rw [val_main_v14_apply, val_main_v12_apply, val_main_call0_v1_apply, val_main_v13_apply, val_main_cst_1_apply,
    val_main_call0_cst_apply, zero_word, zero_add]
  simp only [ec0, val_main_call0_v0_apply, anchor8_apply]
  rfl

/-- A tuple vector's clamped norm. -/
theorem normT_apply (i : Fin 50000) (k : Fin 10) : val_main_v17 (F := Ideal) X tp (ix2 i k) = clampNorm (tupleV X tp i k) := by
  rw [val_main_v17_apply, val_main_v15_apply, val_main_call1_v1_apply, val_main_v16_apply, val_main_cst_2_apply,
    val_main_call1_cst_apply, zero_word, zero_add]
  simp only [ec1, val_main_call1_v0_apply, tuple_apply]
  rfl

/-- `exp` of the similarity of anchor `i` and tuple vector `(i, k)`; the division by the word of `1.0` changes nothing. -/
theorem exp_apply (i : Fin 50000) (k : Fin 10) :
    val_main_v23 (F := Ideal) X tp (ix2 i k) = cosExp (anchorV X i) (tupleV X tp i k) := by
  rw [val_main_v23_apply, val_main_v22_apply, val_main_cst_3_apply, val_main_v21_apply, val_main_v20_apply,
    val_main_v11_apply, val_main_v19_apply, val_main_v18_apply, e18, normA_apply, normT_apply, val_main_cst_apply,
    zero_word, zero_add]
  simp only [e11, val_main_v10_apply, anchor9_apply, tuple_apply]
  exact div_one_word _

/-- Row `i`'s loss. -/
theorem row_apply (i : Fin 50000) : val_main_v30 (F := Ideal) X tp (ix1 i) = lossOf X tp i := by
  rw [val_main_v30_apply, val_main_v29_apply, val_main_v28_apply, val_main_v25_apply, val_main_v24_apply, e24, exp_apply,
    val_main_v27_apply, val_main_cst_4_apply, zero_word, zero_add]
  simp only [val_main_v26_apply, e26, exp_apply]
  rfl

/-- THE REFERENCE'S RESULT: the mean row loss. -/
theorem result_apply (j : S_.Idx) : val_main_v32 (F := Ideal) X tp j = result X tp := by
  rw [val_main_v32_apply, val_main_v31_apply, val_main_cst_5_apply, val_main_cst_6_apply, zero_word, zero_add,
    sum_idx1 (n := 50000)]
  simp only [row_apply]
  rfl

end Cert.ReferenceIdeal.RefValue

end
-- ==== Proof.lean ====
/-
  A contrastive loss over 50000 rows of a 200000 × 256 feature table: for each row, minus the logarithm of
  `exp` of the cosine similarity of the row's anchor with its positive, over the sum of the same for its nine
  negatives (norms clamped below at 1e-8), averaged over the rows. The kernel gathers the positive and negative table
  rows on the host, then streams tiles of 400 rows through the chip, keeping a running total in a 1×1 scratch cell and
  dividing by 50000 at the last tile; the reference computes everything with whole-array operations.

  Over the extended reals the two agree on every input. Row by row both compute the same expression of the same table
  rows: the kernel gathers columns 0 and 1 … 9 of the tuple array separately where the reference gathers all ten at
  once, its lane sums are the reference's sums, its `0 − log q` is the reference's `−log q`, and the reference's extra
  division by 1.0 changes nothing. The totals agree because addition of extended reals is commutative and associative
  with no exception, so the 125 tile sums added one after the other from zero are the one sum over all rows. No
  finiteness of the inputs is used.

  The three frames are the programs' runs (the kernel's two generated whole, the reference's its generated run with the
  result dropped); the idealisation rewrote nothing, so that conjunct is trivial.
-/
import proofs.«159660_j34359738990_2_alg».proof.Defs
import proofs.«159660_j34359738990_2_alg».proof.Proof.Gen.Kernel
import proofs.«159660_j34359738990_2_alg».proof.Proof.Gen.Kernel.Skeleton
import proofs.«159660_j34359738990_2_alg».proof.Proof.Gen.Kernel.Launch
import proofs.«159660_j34359738990_2_alg».proof.Proof.Gen.Kernel.Points
import proofs.«159660_j34359738990_2_alg».proof.Proof.Gen.Kernel.Frame
import proofs.«159660_j34359738990_2_alg».proof.Proof.Gen.KernelIdeal
import proofs.«159660_j34359738990_2_alg».proof.Proof.Gen.KernelIdeal.Skeleton
import proofs.«159660_j34359738990_2_alg».proof.Proof.Gen.KernelIdeal.Launch
import proofs.«159660_j34359738990_2_alg».proof.Proof.Gen.KernelIdeal.Points
import proofs.«159660_j34359738990_2_alg».proof.Proof.Gen.KernelIdeal.Frame
import proofs.«159660_j34359738990_2_alg».proof.Proof.Gen.ReferenceIdeal
import proofs.«159660_j34359738990_2_alg».proof.Proof.Gen.ReferenceIdeal.Run
import proofs.«159660_j34359738990_2_alg».proof.Proof.Gen.ReferenceIdeal.Read
import proofs.«159660_j34359738990_2_alg».proof.Proof.Gen.Pre_finite_inputs
import proofs.«159660_j34359738990_2_alg».proof.Proof.KernelValue
import proofs.«159660_j34359738990_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both runs end with the scalar result at the mean row loss of the same table and the same tuples. -/
theorem algebraic : Cert.algebraic_KernelIdeal_ReferenceIdeal := by
  intro m ρ m' ρ' _ hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  funext j
  exact Cert.ReferenceIdeal.RefValue.result_apply _ _ j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
